-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S1x10000x10000 : Shape := ⟨3, ![1, 10000, 10000]⟩
abbrev S1x128x128 : Shape := ⟨3, ![1, 128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S1x128x128 : S_.BroadcastsInDim S1x128x128 (![] : Fin 0 → Fin S1x128x128.rank)
  reducesTo_S1x128x128_S_d0_1_2 : S1x128x128.ReducesTo [0, 1, 2] S_

variable [Facts]

def fn {F : FTy → Type} [FloatOps F] (main_arg0 : FVec F S10000x128 .f32) (main_arg1 : FVec F S1x10000x10000 .f32) (main_arg2 : FVec F S1x128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S1x128x128 .f32 := Host.absf main_arg2
  let main_cst_2 : FVec F S_ .f32 := constant S_ .f32 0x7F800000#32
  let main_v10 : FVec F S1x128x128 .f32 := broadcastInDim S1x128x128 ![] bcast_S_S1x128x128 main_cst_2
  let main_v11 : IVec S1x128x128 1 := cmpf .olt main_v9 main_v10
  let main_c_3 : IVec S_ 1 := constantI S_ 1 1#1
  let main_v12 : IVec S_ 1 := (fun x v => Host.reduce IntOp.andi x v reducesTo_S1x128x128_S_d0_1_2 h_S_) main_v11 main_c_3
  let main_v13 : IVec S_ 1 := andi main_v8 main_v12
  main_v13
-- ==== Kernel.lean ====
abbrev S10000x128 : Shape := ⟨2, ![10000, 128]⟩
abbrev S1x10000x10000 : Shape := ⟨3, ![1, 10000, 10000]⟩
abbrev S1x128x128 : Shape := ⟨3, ![1, 128, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S1x128x128, .f32⟩
  | .hbm, ⟨3, _⟩ => ⟨S10000x10000, .f32⟩
  | .hbm, ⟨4, _⟩ => ⟨S128x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | .local _ .vmem, ⟨6, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x10000x10000_S10000x10000 : S1x10000x10000.ShapeCasts S10000x10000
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S1x10000x10000 : Shape := ⟨3, ![1, 10000, 10000]⟩
abbrev S1x128x128 : Shape := ⟨3, ![1, 128, 128]⟩
abbrev S10000x10000 : Shape := ⟨2, ![10000, 10000]⟩
abbrev S128x128 : Shape := ⟨2, ![128, 128]⟩
abbrev S1x10000x128 : Shape := ⟨3, ![1, 10000, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S1x128x128, .f32⟩
  | .hbm, ⟨3, _⟩ => ⟨S10000x10000, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S1x10000x128, .f32⟩
  | .hbm, ⟨8, _⟩ => ⟨S_, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S1x10000x10000_S10000x10000 : S1x10000x10000.ShapeCasts S10000x10000
  shapeCasts_S1x128x128_S128x128 : S1x128x128.ShapeCasts S128x128
  bcast_S10000x128_S1x10000x128_1_2 : S10000x128.BroadcastsInDim S1x10000x128 (![1, 2] : Fin 2 → Fin S1x10000x128.rank)
  reducesTo_S1x10000x128_S10000x128_d0 : S1x10000x128.ReducesTo [0] S10000x128
  h_S_ : 0 < S_.numel
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelPieces.lean ====
/-
  What one run of the kernel body leaves behind, as values.

  At the grid's first point the body projects the features, Y = X · W, stores Y whole into the scratch it carries to
  the later points, reads it back, and writes the point's block of 400 adjacency rows against it.  At every later
  point it only reads the scratch the point before left and writes its own block of rows against it.
-/
import proofs.«175374_g74732430950510_cont_9to1_m_36_20_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point leaves, in the output block's buffer, its adjacency rows `x0` against the carried scratch `xs0`. -/
theorem out_B (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S400x128 .f32) (h4 : a4.IsWhole) (a5 : Memref sig .tc .vmem S10000x128 .bf16) (h5 : a5.IsWhole)
    (hc : ¬cond0_0 i) (x0 : Vec F S400x10000 .f32) (x1 : Vec F S10000x128 .f32) (x2 : Vec F S128x128 .f32)
    (xs0 : Vec F S10000x128 .bf16) :
    out0_B_3 c i a1 h1 a2 h2 a3 h3 a4 h4 a5 h5 hc x0 x1 x2 xs0 = k0_pay2 x0 xs0 := by
  unfold out0_B_3
  rw [View.read_writes_eq_canon _ _ _ (cover0_B_3 c i a1 h1 a2 h2 a3 h3 a4 h4 a5 h5 hc x0 x1 x2 xs0)]
  unfold kernelRun0_B
  dsimp only
  rw [View.canon_unit_zero (S := S400x128) hz]
  simp only [View.readAt_eq_ld, h1.read_unread, h5.read_unread, View.ld_unit_zero (S := S400x10000) hz,
    View.ld_unit_zero (S := S10000x128) hz]

/-- The first point leaves the projected features in the carried scratch. -/
theorem sout_A (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S400x128 .f32) (h4 : a4.IsWhole) (a5 : Memref sig .tc .vmem S10000x128 .bf16) (h5 : a5.IsWhole)
    (hc : cond0_0 i) (x0 : Vec F S400x10000 .f32) (x1 : Vec F S10000x128 .f32) (x2 : Vec F S128x128 .f32) :
    sout0_A_0 c i a1 h1 a2 h2 a3 h3 a4 h4 a5 h5 hc x0 x1 x2 = k0_pay1 x1 x2 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero (S := S10000x128) hz]
  simp only [View.readAt_eq_ld, h2.read_unread, h3.read_unread, View.ld_unit_zero (S := S10000x128) hz,
    View.ld_unit_zero (S := S128x128) hz]

/-- The first point leaves, in the output block's buffer, its adjacency rows against the projection it has just stored. -/
theorem out_A (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S400x128 .f32) (h4 : a4.IsWhole) (a5 : Memref sig .tc .vmem S10000x128 .bf16) (h5 : a5.IsWhole)
    (hc : cond0_0 i) (x0 : Vec F S400x10000 .f32) (x1 : Vec F S10000x128 .f32) (x2 : Vec F S128x128 .f32) :
    out0_A_3 c i a1 h1 a2 h2 a3 h3 a4 h4 a5 h5 hc x0 x1 x2 = k0_pay2 x0 (k0_pay1 x1 x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S400x128) hz, View.readCov_unit_zero (S := S10000x128) _ hz]
  simp only [View.readAt_eq_ld, h1.read_unread, h2.read_unread, h3.read_unread, View.ld_unit_zero (S := S400x10000) hz,
    View.ld_unit_zero (S := S10000x128) hz, View.ld_unit_zero (S := S128x128) hz]

end Cert.KernelIdeal.Pieces

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.GcnSpec.lean ====
/-
  A graph-convolution layer with one dense support, on the extended reals, index by index.

  With features X [10000, 128], a weight matrix W [128, 128] and a dense adjacency A [10000, 10000]:
    proj X W (k, c)   = ∑ j, X(k, j) · W(j, c)                 -- the projected features  X · W
    gcn A X W (r, c)  = ∑ k, A(r, k) · proj X W (k, c)         -- the aggregation         A · (X · W)
  Both sums keep the association "project first, aggregate second", so nothing here needs finiteness:
  the two programs are compared sum for sum, never re-associated.
-/
import proofs.«175374_g74732430950510_cont_9to1_m_36_20_alg».proof.Proof.LibDense

noncomputable section

namespace Cert.Gcn

open Idealize.ShloMosaic Idealize.ShloMosaic.ValueIdx Cert.Lib.Dense
open scoped BigOperators

/-- The projected features: entry `(k, c)` is row `k` of `X` against column `c` of `W`. -/
def proj (X : (⟨2, ![10000, 128]⟩ : Shape).Idx → EReal) (W : (⟨2, ![128, 128]⟩ : Shape).Idx → EReal) :
    (⟨2, ![10000, 128]⟩ : Shape).Idx → EReal :=
  fun i => rowDot X W (i 0) (i 1)

theorem proj_ix2 (X : (⟨2, ![10000, 128]⟩ : Shape).Idx → EReal) (W : (⟨2, ![128, 128]⟩ : Shape).Idx → EReal)
    (k : Fin 10000) (c : Fin 128) : proj X W (ix2 k c) = rowDot X W k c := rfl

/-- The layer: entry `(r, c)` is row `r` of the adjacency against column `c` of the projected features. -/
def gcn (A : (⟨2, ![10000, 10000]⟩ : Shape).Idx → EReal) (X : (⟨2, ![10000, 128]⟩ : Shape).Idx → EReal)
    (W : (⟨2, ![128, 128]⟩ : Shape).Idx → EReal) : (⟨2, ![10000, 128]⟩ : Shape).Idx → EReal :=
  fun i => rowDot A (proj X W) (i 0) (i 1)

theorem gcn_ix2 (A : (⟨2, ![10000, 10000]⟩ : Shape).Idx → EReal) (X : (⟨2, ![10000, 128]⟩ : Shape).Idx → EReal)
    (W : (⟨2, ![128, 128]⟩ : Shape).Idx → EReal) (r : Fin 10000) (c : Fin 128) :
    gcn A X W (ix2 r c) = rowDot A (proj X W) r c := rfl

/-- A block of 400 consecutive rows of the adjacency against the projected features is the matching block of rows
    of the layer: row `r` of block `b` is row `400·b + r` of the whole. -/
theorem rowDot_block (A : (⟨2, ![10000, 10000]⟩ : Shape).Idx → EReal) (Y : (⟨2, ![10000, 128]⟩ : Shape).Idx → EReal)
    (blk : (⟨2, ![400, 10000]⟩ : Shape).Idx → EReal) (R : Fin 10000) (r : Fin 400) (c : Fin 128)
    (hblk : ∀ k : Fin 10000, blk (ix2 r k) = A (ix2 R k)) :
    rowDot blk Y r c = rowDot A Y R c := by
  unfold rowDot
  exact Finset.sum_congr rfl fun k _ => by rw [hblk k]

end Cert.Gcn

end
-- ==== Proof.KernelValue.lean ====
/-
  The kernel's result array is the graph-convolution layer of the arrays the region finds.

  The grid walks the 25 blocks of 400 adjacency rows.  The carried scratch holds the projected features from the
  first point on (the later points never store into it), so after EVERY point the output block's buffer holds that
  point's 400 rows of the adjacency against the same projection.  Read at an entry, a block's row r at point t is
  row 400·t + r of the layer; the 25 blocks tile the 10000 rows, so the whole array is the layer.
-/
import proofs.«175374_g74732430950510_cont_9to1_m_36_20_alg».proof.Proof.Gen.KernelIdeal.Value
import proofs.«175374_g74732430950510_cont_9to1_m_36_20_alg».proof.Proof.KernelPieces
import proofs.«175374_g74732430950510_cont_9to1_m_36_20_alg».proof.Proof.GcnSpec
import Idealize.ShloMosaic.Lib.Pipeline.Value
import Idealize.ShloMosaic.Lib.StableHlo.Run

noncomputable section

namespace Cert.KernelIdeal.GcnValue

open Cert.KernelIdeal Cert.KernelIdeal.Gen Idealize.ShloMosaic Idealize.ShloMosaic.TcCoe Idealize.SL.Sem
open Idealize.ShloMosaic.ValueIdx Cert.Lib.Dense Cert.Gcn
open Idealize.ShloMosaic.Pipeline (Dat)

/-- Where the windows sit at point `t`: the adjacency's block and the output's block are the `t`-th block of rows,
    the features and the weights are whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section AnyInstance

variable {F : FTy → Type} [FloatOps F]
variable (m : (ℓ : Loc nD τ sig) → Buf (Elt F) ℓ) (ρ : Dev nD → PrngReg)

/-- The features' window holds the whole feature array at every point. -/
theorem iblk1_eq (c : Dev nD) (t : Fin cfg0.N) : (iblk m c 1 t : Vec F S10000x128 .f32) = V m c main_arg0 := by
  obtain ⟨-, -, e0, e1, -, -, -, -⟩ := idx_facts t
  funext j
  unfold iblk
  rw [View.read_apply]
  show V m c main_arg0 _ = V m c main_arg0 j
  congr 1
  funext a
  apply Fin.ext
  match a with
  | ⟨0, _⟩ => show win0_1.index t (0 : Fin 2) * 10000 + 1 * (j 0).val = (j 0).val; rw [e0]; omega
  | ⟨1, _⟩ => show win0_1.index t (1 : Fin 2) * 128 + 1 * (j 1).val = (j 1).val; rw [e1]; omega

/-- The weights' window holds the whole weight matrix at every point. -/
theorem iblk2_eq (c : Dev nD) (t : Fin cfg0.N) : (iblk m c 2 t : Vec F S128x128 .f32) = V m c main_v1 := by
  obtain ⟨-, -, -, -, e0, e1, -, -⟩ := idx_facts t
  funext j
  unfold iblk
  rw [View.read_apply]
  show V m c main_v1 _ = V m c main_v1 j
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The projected features as the body computes them from the whole feature and weight arrays. -/
def projected (c : Dev nD) : Vec F S10000x128 .bf16 := k0_pay1 (V m c main_arg0) (V m c main_v1)

/-- The first point, on any buffers: with the whole feature and weight arrays in its windows it leaves the projection
    in the scratch and its rows against the projection in the output block's buffer. -/
theorem caseA_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S400x128 .f32) (h4 : a4.IsWhole) (a5 : Memref sig .tc .vmem S10000x128 .bf16) (h5 : a5.IsWhole)
    (hc : cond0_0 i) (x0 : Vec F S400x10000 .f32) (x1 : Vec F S10000x128 .f32) (x2 : Vec F S128x128 .f32)
    (e1 : x1 = V m c main_arg0) (e2 : x2 = V m c main_v1) :
    (out0_A_3 c i a1 h1 a2 h2 a3 h3 a4 h4 a5 h5 hc x0 x1 x2, sout0_A_0 c i a1 h1 a2 h2 a3 h3 a4 h4 a5 h5 hc x0 x1 x2)
      = (k0_pay2 x0 (projected m c), projected m c) := by
  subst e1 e2
  rw [Pieces.out_A, Pieces.sout_A]
  rfl

/-- A later point, on any buffers: over a scratch holding the projection it keeps it and leaves its rows against it. -/
theorem caseB_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S400x128 .f32) (h4 : a4.IsWhole) (a5 : Memref sig .tc .vmem S10000x128 .bf16) (h5 : a5.IsWhole)
    (hc : ¬cond0_0 i) (x0 : Vec F S400x10000 .f32) (x1 : Vec F S10000x128 .f32) (x2 : Vec F S128x128 .f32)
    (xs0 : Vec F S10000x128 .bf16) (es : xs0 = projected m c) :
    (out0_B_3 c i a1 h1 a2 h2 a3 h3 a4 h4 a5 h5 hc x0 x1 x2 xs0, sout0_B_0 c i a1 h1 a2 h2 a3 h3 a4 h4 a5 h5 hc x0 x1 x2 xs0)
      = (k0_pay2 x0 (projected m c), projected m c) := by
  subst es
  rw [Pieces.out_B]
  rfl

/-- After every point the carried scratch holds the projected features, and the output block's buffer holds the
    point's adjacency rows against them — by induction on the point: the first stores the projection, the later
    ones keep it. -/
theorem outsAt_eq (c : Dev nD) : ∀ (n : ℕ) (h : n < cfg0.N),
    outsAt0 m c n h = (k0_pay2 (iblk m c 0 ⟨n, h⟩) (projected m c), projected m c)
  | 0, h =>
    (outsAt0_A m c ⟨0, h⟩ rfl).trans
      (caseA_eq m c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) scM0_0 (Memref.isWhole_whole _)
        ((hcond0_0 ⟨0, h⟩).mpr rfl) (iblk m c 0 ⟨0, h⟩) (iblk m c 1 ⟨0, h⟩) (iblk m c 2 ⟨0, h⟩)
        (iblk1_eq m c ⟨0, h⟩) (iblk2_eq m c ⟨0, h⟩))
  | n + 1, h =>
    have hB : ¬(⟨n + 1, h⟩ : Fin cfg0.N).val % 25 = 0 := by
      have hN : cfg0.N = 25 := N_0
      dsimp only; omega
    (outsAt0_B m c ⟨n + 1, h⟩ hB).trans
      (caseB_eq m c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        (fun hc => hB ((hcond0_0 ⟨n + 1, h⟩).mp hc)) (iblk m c 0 ⟨n + 1, h⟩) (iblk m c 1 ⟨n + 1, h⟩) (iblk m c 2 ⟨n + 1, h⟩)
        (outsAt0 m c n (Nat.lt_of_succ_lt h)).2 (congrArg Prod.snd (outsAt_eq c n (Nat.lt_of_succ_lt h))))

end AnyInstance

/-! ## At the extended reals: the payloads entry by entry -/

/-- The body's projection is the specification's, entry by entry: its changes of float format are the identity and
    its product into a zero accumulator is the plain sum. -/
theorem pay1_eq (X : Vec Ideal S10000x128 .f32) (W : Vec Ideal S128x128 .f32) :
    k0_pay1 (F := Ideal) X W = proj X W := by
  funext i
  obtain ⟨k, q, rfl⟩ : ∃ (k : Fin 10000) (q : Fin 128), i = ix2 k q := ⟨i 0, i 1, eq_ix2 i⟩
  unfold k0_pay1
  simp only [shapeCast_self]
  exact matmul_zero_at (φ₁ := .bf16) (φ₂ := .bf16) dot_S10000x128_S128x128_S10000x128_1_0_0_1_n_n rfl rfl rfl rfl rfl rfl
    (truncf .bf16 X bitsLt_bf16_f32) (truncf .bf16 W bitsLt_bf16_f32) k q

/-- A block of 400 adjacency rows against a projection, at entry `(r, q)`, is row `r` of the block against column `q`. -/
theorem pay2_at (x0 : Vec Ideal S400x10000 .f32) (Y : Vec Ideal S10000x128 .bf16) (r : Fin 400) (q : Fin 128) :
    k0_pay2 (F := Ideal) x0 Y (ix2 r q) = rowDot x0 Y r q := by
  unfold k0_pay2
  simp only [shapeCast_self]
  exact matmul_zero_at (φ₁ := .bf16) (φ₂ := .f32) dot_S400x10000_S10000x128_S400x128_1_0_0_1_n_n rfl rfl rfl rfl rfl rfl
    (truncf .bf16 x0 bitsLt_bf16_f32) Y r q

/-- So a block whose row `r` is row `R` of the adjacency is, at entry `(r, q)`, the layer's row `R` against column
    `q`: stated over plain arrays and coordinates, instantiated at a window's block below. -/
theorem block_entry (A : Vec Ideal S10000x10000 .f32) (Y : Vec Ideal S10000x128 .bf16) (x0 : Vec Ideal S400x10000 .f32)
    (r : Fin 400) (q : Fin 128) (R : Fin 10000) (hx0 : ∀ k : Fin 10000, x0 (ix2 r k) = A (ix2 R k)) :
    k0_pay2 (F := Ideal) x0 Y (ix2 r q) = rowDot A Y R q :=
  (pay2_at x0 Y r q).trans (rowDot_block A Y x0 R r q hx0)

/-! ## From blocks to the array -/

variable (m : (ℓ : Loc nD τ sig) → Buf (Elt Ideal) ℓ) (ρ : Dev nD → PrngReg)

/-- The layer of the arrays as the region finds them. -/
abbrev result (c : Dev nD) : Buf (Elt Ideal) ((c : Thread nD τ).loc main_v2) :=
  gcn (V m c main_v0) (V m c main_arg0) (V m c main_v1)

/-- What point `t` writes back is block `t` of the layer. -/
theorem flushed_eq (c : Dev nD) (t : Fin cfg0.N) :
    (dats m 0 c).flushed 3 t = ((cfg0.win 3).blk t).view.read (Elt Ideal) (result m c) := by
  rw [Value.flushed3]
  obtain ⟨e0, e1, -, -, -, -, e2, e3⟩ := idx_facts t
  refine funext fun (j : S400x128.Idx) => ?_
  obtain ⟨r, q, rfl⟩ : ∃ (r : Fin 400) (q : Fin 128), j = ix2 r q := ⟨j 0, j 1, eq_ix2 j⟩
  show (outsAt0 m c t.val t.isLt).1 (ix2 r q) = result m c (((cfg0.win 3).blk t).view.emb (ix2 r q))
  rw [outsAt_eq m c t.val t.isLt]
  show k0_pay2 (iblk m c 0 t) (projected m c) (ix2 r q) = _
  have h1 : (((cfg0.win 3).blk t).view.emb (ix2 r q)) 1 = q :=
    Fin.ext (by show win0_3.index t (1 : Fin 2) * 128 + 1 * q.val = q.val; rw [e3]; omega)
  refine (block_entry (V m c main_v0) (projected m c) (iblk m c 0 t) r q ((((cfg0.win 3).blk t).view.emb (ix2 r q)) 0) ?_).trans ?_
  · intro k
    unfold iblk
    rw [View.read_apply]
    show V m c main_v0 _ = V m c main_v0 _
    congr 1
    funext a
    apply Fin.ext
    match a with
    | ⟨0, _⟩ => show win0_0.index t (0 : Fin 2) * 400 + 1 * r.val = win0_3.index t (0 : Fin 2) * 400 + 1 * r.val; rw [e0, e2]
    | ⟨1, _⟩ => show win0_0.index t (1 : Fin 2) * 10000 + 1 * k.val = k.val; rw [e1]; omega
  · show _ = rowDot (V m c main_v0) (proj (V m c main_arg0) (V m c main_v1)) ((((cfg0.win 3).blk t).view.emb (ix2 r q)) 0)
      ((((cfg0.win 3).blk t).view.emb (ix2 r q)) 1)
    rw [h1]
    unfold projected
    rw [pay1_eq]

/-- An index of the array is in point `t`'s block iff each coordinate is in the block's range on its axis. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v2).slice (win0_3.rect t)).set ↔ _
  rw [View.set_slice_whole, Rect.mem_set_unit]
  exact Iff.rfl

/-- Row `r` is in the block of point `r / 400`: the 25 blocks tile the array. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, e2, e3⟩ := idx_facts t
  refine ⟨t, flush0_3 t, ?_⟩
  rw [mem_blk]
  intro a
  match a with
  | ⟨0, _⟩ => show win0_3.index t (0 : Fin 2) * 400 ≤ (i 0).val ∧ (i 0).val < win0_3.index t (0 : Fin 2) * 400 + 400; rw [e2, ht]; omega
  | ⟨1, _⟩ => show win0_3.index t (1 : Fin 2) * 128 ≤ (i 1).val ∧ (i 1).val < win0_3.index t (1 : Fin 2) * 128 + 128; rw [e3]; omega

/-- The result array after the run is the layer of the arrays the region finds. -/
theorem final (c : Dev nD) : (dats m 0 c).arrAt 3 cfg0.N = result m c :=
  (dats m 0 c).arrAt_eq_of_cover 3 (result m c) (fun t _ => flushed_eq m c t) cover

/-- The region finds the adjacency and the weights as the host's reshapes of the arguments left them. -/
theorem V_main_v0 (c : Dev nD) : (V m c main_v0 : S10000x10000.Idx → EReal)
    = shapeCast S10000x10000 (m ((c : Thread nD τ).loc main_arg1)) shapeCasts_S1x10000x10000_S10000x10000 := by
  dsimp only [Gen.V, Gen.hostOps0]; after_results; rfl

theorem V_main_v1 (c : Dev nD) : (V m c main_v1 : S128x128.Idx → EReal)
    = shapeCast S128x128 (m ((c : Thread nD τ).loc main_arg2)) shapeCasts_S1x128x128_S128x128 := by
  dsimp only [Gen.V, Gen.hostOps0]; after_results; rfl

/-- The run, read: the result array is the layer of the reshaped arguments, the arguments unchanged. -/
theorem run : θ_run defs (onTc (τ := τ) (main (F := Ideal))) ⟨m, fun _ => 0, ρ⟩ fun r => ∀ c : Dev nD,
      r.2.mem ((c : Thread nD τ).loc main_v2)
        = gcn (shapeCast S10000x10000 (m ((c : Thread nD τ).loc main_arg1)) shapeCasts_S1x10000x10000_S10000x10000)
            (m ((c : Thread nD τ).loc main_arg0))
            (shapeCast S128x128 (m ((c : Thread nD τ).loc main_arg2)) shapeCasts_S1x128x128_S128x128)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show gcn (V m c main_v0) (V m c main_arg0) (V m c main_v1) = _
      rw [V_main_v0, V_main_v1, V_main_arg0])), (h c).2⟩)
    (Value.run_blocks m ρ)

end Cert.KernelIdeal.GcnValue

end
-- ==== Proof.RefGcn.lean ====
/-
  The reference program computes the graph-convolution layer.

  Its last value is the sum, over a stack of ONE support, of  A · (X · W):  the initial value 0 plus the single
  term.  On the extended reals 0 + y = y for every y (infinite ones too), so the result is the layer itself,
  read entry by entry through the two products.
-/
import proofs.«175374_g74732430950510_cont_9to1_m_36_20_alg».proof.Proof.Gen.ReferenceIdeal.Read
import proofs.«175374_g74732430950510_cont_9to1_m_36_20_alg».proof.Proof.GcnSpec

noncomputable section

namespace Cert.ReferenceIdeal.RefValue

open Cert.ReferenceIdeal Cert.ReferenceIdeal.Read Idealize.ShloMosaic Idealize.ShloMosaic.ValueIdx
open Cert.Lib.Dense Cert.Gcn
open scoped BigOperators

/-- The first product, features against weights, is the projection. -/
theorem v2_is_proj (x0 : (⟨S10000x128, .f32⟩ : BufTy).Contents (Elt Ideal)) (x2 : (⟨S1x128x128, .f32⟩ : BufTy).Contents (Elt Ideal)) :
    val_main_v2 (F := Ideal) x0 x2 = proj x0 (val_main_v1 (F := Ideal) x2) := by
  funext i
  obtain ⟨k, c, rfl⟩ : ∃ (k : Fin 10000) (c : Fin 128), i = ix2 k c := ⟨i 0, i 1, eq_ix2 i⟩
  exact dotGeneral_at (φ₁ := .f32) (φ₂ := .f32) dot_S10000x128_S128x128_S10000x128_1_0_0_1_n_n rfl rfl rfl rfl rfl rfl
    x0 (val_main_v1 (F := Ideal) x2) k c

/-- The second product, adjacency against the projection, is the layer. -/
theorem v3_is_gcn (x0 : (⟨S10000x128, .f32⟩ : BufTy).Contents (Elt Ideal)) (x1 : (⟨S1x10000x10000, .f32⟩ : BufTy).Contents (Elt Ideal))
    (x2 : (⟨S1x128x128, .f32⟩ : BufTy).Contents (Elt Ideal)) :
    val_main_v3 (F := Ideal) x0 x1 x2 = gcn (val_main_v0 (F := Ideal) x1) x0 (val_main_v1 (F := Ideal) x2) := by
  funext i
  obtain ⟨r, c, rfl⟩ : ∃ (r : Fin 10000) (c : Fin 128), i = ix2 r c := ⟨i 0, i 1, eq_ix2 i⟩
  unfold val_main_v3
  rw [v2_is_proj]
  exact dotGeneral_at (φ₁ := .f32) (φ₂ := .f32) dot_S10000x10000_S10000x128_S10000x128_1_0_0_1_n_n rfl rfl rfl rfl rfl rfl
    (val_main_v0 (F := Ideal) x1) (proj x0 (val_main_v1 (F := Ideal) x2)) r c

/-- The sum over the one-element stack adds nothing: the reference's result is the layer. -/
theorem ref_is_gcn (x0 : (⟨S10000x128, .f32⟩ : BufTy).Contents (Elt Ideal)) (x1 : (⟨S1x10000x10000, .f32⟩ : BufTy).Contents (Elt Ideal))
    (x2 : (⟨S1x128x128, .f32⟩ : BufTy).Contents (Elt Ideal)) :
    val_main_v5 (F := Ideal) x0 x1 x2 = gcn (val_main_v0 (F := Ideal) x1) x0 (val_main_v1 (F := Ideal) x2) := by
  funext i
  obtain ⟨r, c, rfl⟩ : ∃ (r : Fin 10000) (c : Fin 128), i = ix2 r c := ⟨i 0, i 1, eq_ix2 i⟩
  rw [val_main_v5_apply, Fin.sum_univ_one, val_main_v4_apply, val_main_cst_apply]
  have hi : idx_main_v4 (idx_main_v5 (ix2 r c) (0 : Fin 1)) = ix2 r c :=
    funext fun a => Fin.ext (by match a with | ⟨0, _⟩ => rfl | ⟨1, _⟩ => rfl)
  rw [hi, v3_is_gcn]
  show Ideal.ofBits .f32 0x00000000#32 + _ = _
  rw [Ideal.ofBits_zero_f32, zero_add]

end Cert.ReferenceIdeal.RefValue

end
-- ==== Proof.lean ====
/-
  A graph-convolution layer with one dense support:  out = A · (X · W)  with features X [10000, 128], weights
  W [128, 128] (given as a stack of one matrix) and a dense adjacency A [10000, 10000] (a stack of one).

  The kernel walks 25 blocks of 400 adjacency rows.  At the first block it projects the features once, Y = X · W,
  into a scratch it keeps for the whole walk, and at every block it multiplies the block's rows with Y.  Its float
  format changes are the identity on the extended reals and each product into a zero accumulator is the plain sum, so
  block t, row r, column c holds  ∑ k, A(400·t + r, k) · ∑ j, X(k, j) · W(j, c).  The 25 blocks tile the rows.

  The reference computes the same two products on whole arrays and then sums a stack of ONE term from 0; on the
  extended reals 0 + y = y for every y.  Both sides therefore are the same nested sum, term for term: no
  re-association, no distributivity, and so no use of the inputs' finiteness.

  The frames of the two kernel programs and the runs of the three programs come from the generated modules; the
  modules KernelValue and RefGcn show that the kernel's array and the reference's term are one function (GcnSpec).
-/
import proofs.«175374_g74732430950510_cont_9to1_m_36_20_alg».proof.Defs
import proofs.«175374_g74732430950510_cont_9to1_m_36_20_alg».proof.Proof.Gen.Kernel
import proofs.«175374_g74732430950510_cont_9to1_m_36_20_alg».proof.Proof.Gen.Kernel.Skeleton
import proofs.«175374_g74732430950510_cont_9to1_m_36_20_alg».proof.Proof.Gen.Kernel.Launch
import proofs.«175374_g74732430950510_cont_9to1_m_36_20_alg».proof.Proof.Gen.Kernel.Points
import proofs.«175374_g74732430950510_cont_9to1_m_36_20_alg».proof.Proof.Gen.Kernel.Frame
import proofs.«175374_g74732430950510_cont_9to1_m_36_20_alg».proof.Proof.Gen.KernelIdeal
import proofs.«175374_g74732430950510_cont_9to1_m_36_20_alg».proof.Proof.Gen.KernelIdeal.Skeleton
import proofs.«175374_g74732430950510_cont_9to1_m_36_20_alg».proof.Proof.Gen.KernelIdeal.Launch
import proofs.«175374_g74732430950510_cont_9to1_m_36_20_alg».proof.Proof.Gen.KernelIdeal.Points
import proofs.«175374_g74732430950510_cont_9to1_m_36_20_alg».proof.Proof.Gen.KernelIdeal.Frame
import proofs.«175374_g74732430950510_cont_9to1_m_36_20_alg».proof.Proof.Gen.ReferenceIdeal
import proofs.«175374_g74732430950510_cont_9to1_m_36_20_alg».proof.Proof.Gen.Pre_finite_inputs
import proofs.«175374_g74732430950510_cont_9to1_m_36_20_alg».proof.Proof.Gen.KernelIdeal.Value
import proofs.«175374_g74732430950510_cont_9to1_m_36_20_alg».proof.Proof.Gen.ReferenceIdeal.Run
import proofs.«175374_g74732430950510_cont_9to1_m_36_20_alg».proof.Proof.Gen.ReferenceIdeal.Read
import proofs.«175374_g74732430950510_cont_9to1_m_36_20_alg».proof.Proof.KernelValue
import proofs.«175374_g74732430950510_cont_9to1_m_36_20_alg».proof.Proof.RefGcn
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals the kernel's result array ends at the layer of the reshaped arguments, and the reference's
    result at the same layer of arguments that agree. -/
theorem algebraic : Cert.algebraic_KernelIdeal_ReferenceIdeal := by
  intro m ρ m' ρ' _ hagree
  refine ⟨_, Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_is_gcn,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
